-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S320x1024 : S_.BroadcastsInDim S320x1024 (![] : Fin 0 → Fin S320x1024.rank)
  reducesTo_S320x1024_S_d0_1 : S320x1024.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x1024 1) : IVec S_ 1 :=
  let main_c_5 : IVec S_ 1 := constantI S_ 1 1#1
  let main_v17 : IVec S_ 1 := (fun x v => Host.reduce IntOp.andi x v reducesTo_S320x1024_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S20000x1024 .f32) (main_arg1 : FVec F S81x1024 .f32) (main_arg2 : FVec F S81 .f32) (main_arg3 : FVec F S320x1024 .f32) (main_arg4 : FVec F S320 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S81x1024 .f32 := Host.absf main_arg1
  let main_cst_0 : FVec F S_ .f32 := constant S_ .f32 0x7F800000#32
  let main_v5 : FVec F S81x1024 .f32 := broadcastInDim S81x1024 ![] bcast_S_S81x1024 main_cst_0
  let main_v6 : IVec S81x1024 1 := cmpf .olt main_v4 main_v5
  let main_c_1 : IVec S_ 1 := constantI S_ 1 1#1
  let main_v7 : IVec S_ 1 := (fun x v => Host.reduce IntOp.andi x v reducesTo_S81x1024_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S320x1024 .f32 := Host.absf main_arg3
  let main_cst_4 : FVec F S_ .f32 := constant S_ .f32 0x7F800000#32
  let main_v15 : FVec F S320x1024 .f32 := broadcastInDim S320x1024 ![] bcast_S_S320x1024 main_cst_4
  let main_v16 : IVec S320x1024 1 := cmpf .olt main_v14 main_v15
  fn_part1 (F := F) main_arg4 main_v13 main_v16
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩
abbrev S128x1024 : Shape := ⟨2, ![128, 1024]⟩
abbrev S448x1024 : Shape := ⟨2, ![448, 1024]⟩
abbrev S1024x448 : Shape := ⟨2, ![1024, 448]⟩
abbrev S128 : Shape := ⟨1, ![128]⟩
abbrev S448 : Shape := ⟨1, ![448]⟩
abbrev S1x448 : Shape := ⟨2, ![1, 448]⟩
abbrev S20000x81 : Shape := ⟨2, ![20000, 81]⟩
abbrev S20000x320 : Shape := ⟨2, ![20000, 320]⟩
abbrev S1000x1024 : Shape := ⟨2, ![1000, 1024]⟩
abbrev S1000x81 : Shape := ⟨2, ![1000, 81]⟩
abbrev S1000x320 : Shape := ⟨2, ![1000, 320]⟩
abbrev S1000x448 : Shape := ⟨2, ![1000, 448]⟩

abbrev nBuf : Space → Nat
  | .hbm => 18
  | .vmem => 8
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S448x1024, .f32⟩
  | .hbm, ⟨9, _⟩ => ⟨S1024x448, .f32⟩
  | .hbm, ⟨10, _⟩ => ⟨S1024x448, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S448, .f32⟩
  | .hbm, ⟨15, _⟩ => ⟨S1x448, .f32⟩
  | .hbm, ⟨16, _⟩ => ⟨S20000x81, .f32⟩
  | .hbm, ⟨17, _⟩ => ⟨S20000x320, .f32⟩
  | .local _ .vmem, ⟨0, _⟩ => ⟨S1000x1024, .f32⟩
  | .local _ .vmem, ⟨1, _⟩ => ⟨S1000x1024, .f32⟩
  | .local _ .vmem, ⟨2, _⟩ => ⟨S1024x448, .bf16⟩
  | .local _ .vmem, ⟨3, _⟩ => ⟨S1x448, .f32⟩
  | .local _ .vmem, ⟨4, _⟩ => ⟨S1000x81, .f32⟩
  | .local _ .vmem, ⟨5, _⟩ => ⟨S1000x81, .f32⟩
  | .local _ .vmem, ⟨6, _⟩ => ⟨S1000x320, .f32⟩
  | .local _ .vmem, ⟨7, _⟩ => ⟨S1000x320, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S81x1024_S128x1024_0470_000 : S81x1024.Pads (![0, 0] : Fin 2 → Nat) ![47, 0] ![0, 0] S128x1024
  h_S_ : 0 < S_.numel
  concatenates_S128x1024_S320x1024_S448x1024_d0 : Shape.Concatenates [S128x1024, S320x1024] S448x1024 0
  transposes_S448x1024_S1024x448_1_0 : S448x1024.Transposes [1, 0] S1024x448
  bitsLt_bf16_f32 : FTy.bits .bf16 < FTy.bits .f32
  pads_S81_S128_0470 : S81.Pads (![0] : Fin 1 → Nat) ![47] ![0] S128
  concatenates_S128_S320_S448_d0 : Shape.Concatenates [S128, S320] S448 0
  shapeCasts_S448_S1x448 : S448.ShapeCasts S1x448
  inb_S1000x1024_S1000x1024_0_0 : ∀ a, (![0, 0] : Fin 2 → Nat) a + S1000x1024.size a ≤ S1000x1024.size a
  h_S1000x1024 : 0 < S1000x1024.numel
  inb_S1024x448_S1024x448_0_0 : ∀ a, (![0, 0] : Fin 2 → Nat) a + S1024x448.size a ≤ S1024x448.size a
  h_S1024x448 : 0 < S1024x448.numel
  shapeCasts_S1024x448_S1024x448 : S1024x448.ShapeCasts S1024x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S1000x448 : S1x448.Broadcasts S1000x448
  slices_S1000x448_o0_0_S1000x81 : S1000x448.Slices ![0, 0] S1000x81
  inb_S1000x81_S1000x81_0_0 : ∀ a, (![0, 0] : Fin 2 → Nat) a + S1000x81.size a ≤ S1000x81.size a
  h_S1000x81 : 0 < S1000x81.numel
  slices_S1000x448_o0_128_S1000x320 : S1000x448.Slices ![0, 128] S1000x320
  inb_S1000x320_S1000x320_0_0 : ∀ a, (![0, 0] : Fin 2 → Nat) a + S1000x320.size a ≤ S1000x320.size a
  h_S1000x320 : 0 < S1000x320.numel
  dot_S1000x1024_S1024x448_S1000x448_1_0_0_1_n_n_wf : DotDims.WF S1000x1024 S1024x448 S1000x448 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S20000x1024.size a
  hwx0_0 : ∀ i : grid0.Coords, EltTy.bits .f32 = 32 ∨ (Rect.block (s := S20000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x448.size a ≤ S1024x448.size a
  hwx0_1 : ∀ i : grid0.Coords, EltTy.bits .bf16 = 32 ∨ (Rect.block (s := S1024x448) S1024x448.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x448.size a ≤ S1x448.size a
  hwx0_2 : ∀ i : grid0.Coords, EltTy.bits .f32 = 32 ∨ (Rect.block (s := S1x448) S1x448.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x81.size a ≤ S20000x81.size a
  hwx0_3 : ∀ i : grid0.Coords, EltTy.bits .f32 = 32 ∨ (Rect.block (s := S20000x81) S1000x81.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x320.size a ≤ S20000x320.size a
  hwx0_4 : ∀ i : grid0.Coords, EltTy.bits .f32 = 32 ∨ (Rect.block (s := S20000x320) S1000x320.size (cc0_transform_4 i) (hinb0_4 i)).WholeWords (EltTy.packing .f32)

variable [Facts₀]

def dot_S1000x1024_S1024x448_S1000x448_1_0_0_1_n_n : DotDims S1000x1024 S1024x448 S1000x448 where
  lhsContracting := [1]
  rhsContracting := [0]
  lhsNonContracting := [0]
  rhsNonContracting := [1]
  lhsBatch := []
  rhsBatch := []
  wf := dot_S1000x1024_S1024x448_S1000x448_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x448.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1000x81.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1000x320.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  transposes_S320x1024_S1024x320_1_0 : S320x1024.Transposes [1, 0] S1024x320
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  dot_S20000x1024_S1024x81_S20000x81_1_0_0_1_n_n_wf : DotDims.WF S20000x1024 S1024x81 S20000x81 [1] [0] [0] [1] [] []
  dot_S20000x1024_S1024x320_S20000x320_1_0_0_1_n_n_wf : DotDims.WF S20000x1024 S1024x320 S20000x320 [1] [0] [0] [1] [] []

variable [Facts₀]

def dot_S20000x1024_S1024x81_S20000x81_1_0_0_1_n_n : DotDims S20000x1024 S1024x81 S20000x81 where
  lhsContracting := [1]
  rhsContracting := [0]
  lhsNonContracting := [0]
  rhsNonContracting := [1]
  lhsBatch := []
  rhsBatch := []
  wf := dot_S20000x1024_S1024x81_S20000x81_1_0_0_1_n_n_wf
def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf

class Facts : Prop extends Facts₀ where

variable [Facts]
-- ==== Proof.AffineSpec.lean ====
/-
  The specification both programs are compared with: an affine layer, entry by entry.

  For activations x of N rows and 1024 columns, a weight matrix W of C rows and 1024 columns and a bias vector b of
  C entries, entry (p, q) of x · Wᵀ + b is the sum over k < 1024 of x(p, k) · W(q, k), plus b(q): row p of the
  activations against row q of the weights. The two results of the layer pair — the class scores (C = 81) and the box
  deltas (C = 320) — are this one function at two widths. On the extended reals the sum is a sum in a commutative
  monoid; nothing below asks the entries to be finite.
-/
import Idealize.ShloMosaic.Lib.ValueIdx

noncomputable section

open scoped BigOperators

namespace Cert.TwoAffine

open Idealize.ShloMosaic Idealize.ShloMosaic.ValueIdx

/-- Entry (p, q) of x · Wᵀ + b: row p of x against row q of W over the 1024 shared columns, plus entry q of b. -/
def affine {N C : Nat} (x : FVec Ideal ⟨2, ![N, 1024]⟩ .f32) (W : FVec Ideal ⟨2, ![C, 1024]⟩ .f32)
    (b : FVec Ideal ⟨1, ![C]⟩ .f32) (p : Fin N) (q : Fin C) : EReal :=
  (∑ k : Fin 1024, x (ix2 p k) * W (ix2 q k)) + b (ix1 q)

/-- The whole result x · Wᵀ + b as an array: at an index, `affine` at the index's two coordinates. -/
def affineArray {N C : Nat} (x : FVec Ideal ⟨2, ![N, 1024]⟩ .f32) (W : FVec Ideal ⟨2, ![C, 1024]⟩ .f32)
    (b : FVec Ideal ⟨1, ![C]⟩ .f32) : FVec Ideal ⟨2, ![N, C]⟩ .f32 :=
  fun i => affine x W b ⟨(i 0).val, idx2_lt0 i⟩ ⟨(i 1).val, idx2_lt1 i⟩

/-- The array at the index of two coordinates is `affine` at those coordinates. -/
theorem affineArray_ix2 {N C : Nat} (x : FVec Ideal ⟨2, ![N, 1024]⟩ .f32) (W : FVec Ideal ⟨2, ![C, 1024]⟩ .f32)
    (b : FVec Ideal ⟨1, ![C]⟩ .f32) (p : Fin N) (q : Fin C) : affineArray x W b (ix2 p q) = affine x W b p q := rfl

end Cert.TwoAffine

end
-- ==== Proof.ReferenceAffine.lean ====
/-
  The reference computes the specification.

  Each of the reference's two results is a transpose of the weights, a product of the activations with it, the bias
  laid out as one row and repeated over the 20000 rows, and a sum. Read at an index (p, q): the product contracts
  column k of the activations' row p with row k of the transposed weights' column q, which is entry (q, k) of the
  weights; the repeated bias row is entry q of the bias. That is `affine` at (p, q), term by term.
-/
import proofs.«107855_g66451734003796_cont_sun_c4_624_27_alg».proof.Proof.Gen.ReferenceIdeal.Read
import proofs.«107855_g66451734003796_cont_sun_c4_624_27_alg».proof.Proof.AffineSpec

noncomputable section

open scoped BigOperators

namespace Cert.ReferenceIdeal.Affine

open Cert.ReferenceIdeal Cert.ReferenceIdeal.Read Cert.TwoAffine Idealize.ShloMosaic Idealize.ShloMosaic.ValueIdx

/-! ## The class scores (81 columns) -/

/-- The product's left factor is read at row p, column k. -/
theorem scores_left (i : S20000x81.Idx) (k : Fin 1024) :
    lidx_main_v1 i k = ix2 (⟨(i 0).val, idx2_lt0 i⟩ : Fin 20000) k :=
  funext fun a => by match a with | ⟨0, _⟩ => rfl | ⟨1, _⟩ => rfl

/-- The product's right factor, the transposed weights at (k, q), is the weights at row q, column k. -/
theorem scores_right (i : S20000x81.Idx) (k : Fin 1024) :
    idx_main_v0 (ridx_main_v1 i k) = ix2 (⟨(i 1).val, idx2_lt1 i⟩ : Fin 81) k :=
  funext fun a => by match a with | ⟨0, _⟩ => rfl | ⟨1, _⟩ => rfl

/-- The bias, laid out as a row and repeated over the rows, is read at entry q. -/
theorem scores_bias (i : S20000x81.Idx) : idx_main_v2 (idx_main_v3 i) = ix1 (⟨(i 1).val, idx2_lt1 i⟩ : Fin 81) :=
  funext fun a => by match a with | ⟨0, _⟩ => rfl

/-- The reference's first result is x · Wcᵀ + bc. -/
theorem scores_eq (x : FVec Ideal S20000x1024 .f32) (Wc : FVec Ideal S81x1024 .f32) (bc : FVec Ideal S81 .f32) :
    val_main_v4 (F := Ideal) x Wc bc = affineArray x Wc bc := by
  funext i
  rw [val_main_v4_apply, val_main_v1_apply, val_main_v3_apply, val_main_v2_apply]
  simp only [val_main_v0_apply, scores_left, scores_right, scores_bias]
  rfl

/-! ## The box deltas (320 columns) -/

/-- The product's left factor is read at row p, column k. -/
theorem deltas_left (i : S20000x320.Idx) (k : Fin 1024) :
    lidx_main_v6 i k = ix2 (⟨(i 0).val, idx2_lt0 i⟩ : Fin 20000) k :=
  funext fun a => by match a with | ⟨0, _⟩ => rfl | ⟨1, _⟩ => rfl

/-- The product's right factor, the transposed weights at (k, q), is the weights at row q, column k. -/
theorem deltas_right (i : S20000x320.Idx) (k : Fin 1024) :
    idx_main_v5 (ridx_main_v6 i k) = ix2 (⟨(i 1).val, idx2_lt1 i⟩ : Fin 320) k :=
  funext fun a => by match a with | ⟨0, _⟩ => rfl | ⟨1, _⟩ => rfl

/-- The bias, laid out as a row and repeated over the rows, is read at entry q. -/
theorem deltas_bias (i : S20000x320.Idx) : idx_main_v7 (idx_main_v8 i) = ix1 (⟨(i 1).val, idx2_lt1 i⟩ : Fin 320) :=
  funext fun a => by match a with | ⟨0, _⟩ => rfl

/-- The reference's second result is x · Wbᵀ + bb. -/
theorem deltas_eq (x : FVec Ideal S20000x1024 .f32) (Wb : FVec Ideal S320x1024 .f32) (bb : FVec Ideal S320 .f32) :
    val_main_v9 (F := Ideal) x Wb bb = affineArray x Wb bb := by
  funext i
  rw [val_main_v9_apply, val_main_v6_apply, val_main_v8_apply, val_main_v7_apply]
  simp only [val_main_v5_apply, deltas_left, deltas_right, deltas_bias]
  rfl

end Cert.ReferenceIdeal.Affine

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.BodyAffine.lean ====
/-
  What the kernel's body computes, entry by entry.

  At every grid point the body holds a block of 1000 rows of the activations, the packed weights [1024, 448] and the
  packed bias row [1, 448]. It multiplies the block by the packed weights into a zero accumulator and adds the bias
  row to every row of the product. A change of float format is the identity on the extended reals, so entry (p, q)
  of that value is the sum over k < 1024 of block(p, k) · weights(k, q), plus bias(0, q). The two stored outputs are
  column ranges of this one value.
-/
import proofs.«107855_g66451734003796_cont_sun_c4_624_27_alg».proof.Proof.Gen.KernelIdeal.Skeleton
import proofs.«107855_g66451734003796_cont_sun_c4_624_27_alg».proof.Proof.LibProductAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.ProductAt Idealize.ShloMosaic Idealize.ShloMosaic.ValueIdx

/-- The index built from two numbers and their bounds is the index built from the two coordinates. -/
theorem at2_eq_ix2 {n0 n1 : Nat} (p : Fin n0) (q : Fin n1) : at2 p.val p.isLt q.val q.isLt = ix2 p q :=
  funext fun a => by match a with | ⟨0, _⟩ => rfl | ⟨1, _⟩ => rfl

/-- The product keeps the left factor's row: its axis 0 is the result's axis 0. -/
theorem product_row (j : S1000x448.Idx) (q : dot_S1000x1024_S1024x448_S1000x448_1_0_0_1_n_n.contr.Idx) : (dot_S1000x1024_S1024x448_S1000x448_1_0_0_1_n_n.lhsIdx j q 0).val = (j 0).val := by
  unfold DotDims.lhsIdx
  rw [dif_neg (show ¬(0 : Fin S1000x1024.rank) ∈ dot_S1000x1024_S1024x448_S1000x448_1_0_0_1_n_n.lhsBatch by decide),
    dif_pos (show (0 : Fin S1000x1024.rank) ∈ dot_S1000x1024_S1024x448_S1000x448_1_0_0_1_n_n.lhsNonContracting by decide)]
  rfl

/-- The product keeps the right factor's column: its axis 1 is the result's axis 1. -/
theorem product_col (j : S1000x448.Idx) (q : dot_S1000x1024_S1024x448_S1000x448_1_0_0_1_n_n.contr.Idx) : (dot_S1000x1024_S1024x448_S1000x448_1_0_0_1_n_n.rhsIdx j q 1).val = (j 1).val := by
  unfold DotDims.rhsIdx
  rw [dif_neg (show ¬(1 : Fin S1024x448.rank) ∈ dot_S1000x1024_S1024x448_S1000x448_1_0_0_1_n_n.rhsBatch by decide),
    dif_pos (show (1 : Fin S1024x448.rank) ∈ dot_S1000x1024_S1024x448_S1000x448_1_0_0_1_n_n.rhsNonContracting by decide)]
  rfl

/-- The body's product into the zero accumulator, at (p, q): row p of the left factor against column q of the right. -/
theorem product_at (l : FVec Ideal S1000x1024 .bf16) (r : FVec Ideal S1024x448 .bf16) (p : Fin 1000) (q : Fin 448) :
    matmul (F := Ideal) dot_S1000x1024_S1024x448_S1000x448_1_0_0_1_n_n none l r (constant (F := Ideal) S1000x448 .f32 0x00000000#32) (ix2 p q)
      = ∑ k : Fin 1024, l (ix2 p k) * r (ix2 k q) := by
  refine (Ideal.matmul_constant_zero_apply dot_S1000x1024_S1024x448_S1000x448_1_0_0_1_n_n none l r (ix2 p q)).trans ?_
  refine (product_sum_eq dot_S1000x1024_S1024x448_S1000x448_1_0_0_1_n_n rfl rfl rfl rfl product_row product_col l r (ix2 p q)).trans ?_
  refine Finset.sum_congr rfl fun k _ => ?_
  show l (at2 p.val p.isLt k.val k.isLt) * r (at2 k.val k.isLt q.val q.isLt) = _
  rw [at2_eq_ix2, at2_eq_ix2]

/-- THE BODY'S VALUE at (p, q): the block's row p against the packed weights' column q, plus the packed bias at q. -/
theorem value_at (P0 : Vec Ideal S1000x1024 .f32) (P1 : Vec Ideal S1024x448 .bf16) (P2 : Vec Ideal S1x448 .f32)
    (p : Fin 1000) (q : Fin 448) :
    k0_pay1 (F := Ideal) P0 P1 P2 (ix2 p q)
      = (∑ k : Fin 1024, P0 (ix2 p k) * P1 (ix2 k q)) + P2 (ix2 (0 : Fin 1) q) := by
  unfold k0_pay1
  show matmul (F := Ideal) dot_S1000x1024_S1024x448_S1000x448_1_0_0_1_n_n none (truncf (F := Ideal) .bf16 P0 bitsLt_bf16_f32)
        (shapeCast S1024x448 P1 shapeCasts_S1024x448_S1024x448) (constant (F := Ideal) S1000x448 .f32 0x00000000#32) (ix2 p q)
      + broadcastTo S1000x448 (shapeCast S1x448 P2 shapeCasts_S1x448_S1x448) broadcasts_S1x448_S1000x448 (ix2 p q) = _
  refine congrArg₂ (· + ·) ?_ ?_
  · refine (product_at _ _ p q).trans (Finset.sum_congr rfl fun k _ => ?_)
    rw [shapeCast_self]
    rfl
  · rw [shapeCast_self]
    exact broadcastTo_1b_ab_apply P2 broadcasts_S1x448_S1000x448 p q

end Cert.KernelIdeal.Body

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibJoinAt.lean ====
import Idealize.ShloMosaic.Lib.ValueIdx
import Idealize.ShloMosaic.Lib.Pipeline.Value

/-!
# Vectors joined end to end, read at an entry

The rank-1 companion of reading a stack of matrices at an entry: vectors [Wₖ] concatenated into one vector [R].
Entry `j` of the result is entry `p` of piece `k` when the pieces before `k` have `pre` entries together and
`j = pre + p`. The piece is named by an equation `xs[k]? = some ⟨shape, x₁⟩`, decided for a literal list by walking
it; `pre` is a sum over a literal prefix. Nothing here depends on what the entries are; library imports only.
-/

namespace Cert.LibJoinAt

open Idealize.ShloMosaic Idealize.ShloMosaic.ValueIdx

variable {α : Type}

/-- The lengths of the pieces, as the library's reading of a concatenation sums them. -/
abbrev lengths {R : ℕ} (ss : List Shape) : List Nat :=
  ss.map fun s => if h : s.rank = (⟨1, ![R]⟩ : Shape).rank then s.size ((0 : Fin 1).cast h.symm) else 0

/-- Vectors joined end to end, read at `j`: entry `p` of piece `k`, where `j = pre + p` and `pre` is the number of
    entries of the pieces before `k`. -/
theorem joined_at {R W : ℕ} (xs : List ((s : Shape) × (s.Idx → α)))
    (h : Shape.Concatenates (xs.map (·.1)) ⟨1, ![R]⟩ (0 : Fin 1)) (j : Fin R)
    (k : ℕ) (x₁ : (⟨1, ![W]⟩ : Shape).Idx → α) (hxk : xs[k]? = some ⟨⟨1, ![W]⟩, x₁⟩)
    (pre : ℕ) (hpre : (lengths (R := R) ((xs.take k).map (·.1))).sum = pre)
    (p : Fin W) (hj : pre + p.val = j.val) :
    concatenate ⟨1, ![R]⟩ (0 : Fin 1) xs h (ix1 j) = x₁ (ix1 p) := by
  obtain ⟨hk, hxk'⟩ := List.getElem?_eq_some_iff.mp hxk
  exact concatenate_apply_piece (t := ⟨1, ![R]⟩) (0 : Fin 1) xs h (ix1 j) k hk ⟨1, ![W]⟩ x₁ hxk' rfl pre hpre (ix1 p)
    (fun b hb => by
      match b with
      | ⟨0, _⟩ => exact absurd rfl hb) hj

end Cert.LibJoinAt
-- ==== Proof.PackedOperands.lean ====
/-
  What the kernel's second and third operands hold when the grid starts.

  Before the grid runs, the host packs the two weight matrices into one and the two bias vectors into one. The 81
  rows of the class weights are padded below with 47 rows of the padding value to 128 rows, the 320 rows of the box
  weights are stacked under them, and the [448, 1024] stack is transposed to [1024, 448]; the change of float format
  that follows is the identity on the extended reals. So column q of the packed weights is row q of the class weights
  for q < 81 and row q − 128 of the box weights for q ≥ 128 (columns 81 … 127 hold the padding and are never read by
  either output). The bias vectors are packed the same way into one vector of 448 entries, recast as one row.
-/
import proofs.«107855_g66451734003796_cont_sun_c4_624_27_alg».proof.Proof.Gen.KernelIdeal.Frame
import proofs.«107855_g66451734003796_cont_sun_c4_624_27_alg».proof.Proof.LibConcatAt
import proofs.«107855_g66451734003796_cont_sun_c4_624_27_alg».proof.Proof.LibJoinAt
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Packed

open Cert.KernelIdeal Cert.KernelIdeal.Gen Idealize.ShloMosaic Idealize.ShloMosaic.TcCoe Idealize.SL.Sem
open Idealize.ShloMosaic.StableHlo Idealize.ShloMosaic.ValueIdx

/-- The value the host pads with: the integer 0 converted to a float. -/
abbrev padValue : FVec Ideal S_ .f32 := sitofp (F := Ideal) .f32 (constantI S_ 32 0#32)

/-- The two matrices the host stacks: the class weights padded to 128 rows, then the box weights. -/
abbrev weightRows (Wc : FVec Ideal S81x1024 .f32) (Wb : FVec Ideal S320x1024 .f32) : List ((s : Shape) × (s.Idx → EReal)) :=
  [⟨S128x1024, pad S128x1024 ![0, 0] ![47, 0] ![0, 0] Wc padValue pads_S81x1024_S128x1024_0470_000 h_S_⟩, ⟨S320x1024, Wb⟩]

/-- The two vectors the host joins: the class bias padded to 128 entries, then the box bias. -/
abbrev biasParts (bc : FVec Ideal S81 .f32) (bb : FVec Ideal S320 .f32) : List ((s : Shape) × (s.Idx → EReal)) :=
  [⟨S128, pad S128 ![0] ![47] ![0] bc padValue pads_S81_S128_0470 h_S_⟩, ⟨S320, bb⟩]

/-- The packed weights [1024, 448] as the host builds them from the two weight matrices. -/
def packedWeights (Wc : FVec Ideal S81x1024 .f32) (Wb : FVec Ideal S320x1024 .f32) : FVec Ideal S1024x448 .bf16 :=
  truncf (F := Ideal) .bf16
    (transpose S1024x448 [1, 0]
      (concatenate S448x1024 0 (weightRows Wc Wb) concatenates_S128x1024_S320x1024_S448x1024_d0)
      transposes_S448x1024_S1024x448_1_0)
    bitsLt_bf16_f32

/-- The packed bias row [1, 448] as the host builds it from the two bias vectors. -/
def packedBias (bc : FVec Ideal S81 .f32) (bb : FVec Ideal S320 .f32) : FVec Ideal S1x448 .f32 :=
  shapeCast S1x448 (concatenate S448 0 (biasParts bc bb) concatenates_S128_S320_S448_d0) shapeCasts_S448_S1x448

/-! ## The packed operands, entry by entry -/

/-- Column q < 81 of the packed weights is row q of the class weights. -/
theorem packedWeights_scores (Wc : FVec Ideal S81x1024 .f32) (Wb : FVec Ideal S320x1024 .f32) (k : Fin 1024)
    (q : Fin 448) (hq : q.val < 81) : packedWeights Wc Wb (ix2 k q) = Wc (ix2 (⟨q.val, hq⟩ : Fin 81) k) := by
  unfold packedWeights
  show transpose S1024x448 [1, 0] (concatenate S448x1024 0 (weightRows Wc Wb) concatenates_S128x1024_S320x1024_S448x1024_d0)
    transposes_S448x1024_S1024x448_1_0 (ix2 k q) = _
  refine (transpose_ix2_apply _ transposes_S448x1024_S1024x448_1_0 k q).trans ?_
  refine (Cert.LibConcatAt.stacked_at (weightRows Wc Wb) concatenates_S128x1024_S320x1024_S448x1024_d0 q k 0 _ rfl 0 rfl
    (⟨q.val, by omega⟩ : Fin 128) (Nat.zero_add _)).trans ?_
  refine pad_apply_of_inside _ _ _ Wc padValue pads_S81x1024_S128x1024_0470_000 h_S_ _ (ix2 (⟨q.val, hq⟩ : Fin 81) k) ?_
  intro a
  match a with
  | ⟨0, _⟩ => show q.val = 0 + q.val * (0 + 1); omega
  | ⟨1, _⟩ => show k.val = 0 + k.val * (0 + 1); omega

/-- Column 128 + r of the packed weights is row r of the box weights. -/
theorem packedWeights_deltas (Wc : FVec Ideal S81x1024 .f32) (Wb : FVec Ideal S320x1024 .f32) (k : Fin 1024)
    (q : Fin 448) (r : Fin 320) (hq : 128 + r.val = q.val) : packedWeights Wc Wb (ix2 k q) = Wb (ix2 r k) := by
  unfold packedWeights
  show transpose S1024x448 [1, 0] (concatenate S448x1024 0 (weightRows Wc Wb) concatenates_S128x1024_S320x1024_S448x1024_d0)
    transposes_S448x1024_S1024x448_1_0 (ix2 k q) = _
  refine (transpose_ix2_apply _ transposes_S448x1024_S1024x448_1_0 k q).trans ?_
  exact Cert.LibConcatAt.stacked_at (weightRows Wc Wb) concatenates_S128x1024_S320x1024_S448x1024_d0 q k 1 Wb rfl 128 rfl r hq

/-- Entry q < 81 of the packed bias row is entry q of the class bias. -/
theorem packedBias_scores (bc : FVec Ideal S81 .f32) (bb : FVec Ideal S320 .f32) (q : Fin 448) (hq : q.val < 81) :
    packedBias bc bb (ix2 (0 : Fin 1) q) = bc (ix1 (⟨q.val, hq⟩ : Fin 81)) := by
  unfold packedBias
  refine (shapeCast_a_1a_apply _ shapeCasts_S448_S1x448 0 q).trans ?_
  refine (Cert.LibJoinAt.joined_at (biasParts bc bb) concatenates_S128_S320_S448_d0 q 0 _ rfl 0 rfl
    (⟨q.val, by omega⟩ : Fin 128) (Nat.zero_add _)).trans ?_
  refine pad_apply_of_inside _ _ _ bc padValue pads_S81_S128_0470 h_S_ _ (ix1 (⟨q.val, hq⟩ : Fin 81)) ?_
  intro a
  match a with
  | ⟨0, _⟩ => show q.val = 0 + q.val * (0 + 1); omega

/-- Entry 128 + r of the packed bias row is entry r of the box bias. -/
theorem packedBias_deltas (bc : FVec Ideal S81 .f32) (bb : FVec Ideal S320 .f32) (q : Fin 448) (r : Fin 320)
    (hq : 128 + r.val = q.val) : packedBias bc bb (ix2 (0 : Fin 1) q) = bb (ix1 r) := by
  unfold packedBias
  refine (shapeCast_a_1a_apply _ shapeCasts_S448_S1x448 0 q).trans ?_
  exact Cert.LibJoinAt.joined_at (biasParts bc bb) concatenates_S128_S320_S448_d0 q 1 bb rfl 128 rfl r hq

/-! ## The arrays the grid finds -/

variable (m : (ℓ : Loc nD τ sig) → Buf (Elt Ideal) ℓ)

/-- When the grid starts, the second operand's array holds the packed weights of the launch's weight matrices. -/
theorem entry_weights (c : Dev nD) :
    (V m c main_v3 : S1024x448.Idx → EReal)
      = packedWeights (m ((c : Thread nD τ).loc main_arg1)) (m ((c : Thread nD τ).loc main_arg3)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- When the grid starts, the third operand's array holds the packed bias row of the launch's bias vectors. -/
theorem entry_bias (c : Dev nD) :
    (V m c main_v6 : S1x448.Idx → EReal)
      = packedBias (m ((c : Thread nD τ).loc main_arg2)) (m ((c : Thread nD τ).loc main_arg4)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.Packed

end
-- ==== Proof.KernelAffine.lean ====
/-
  The kernel computes the specification.

  The grid has 20 points. Point t holds rows 1000·t … 1000·t + 999 of the activations, the whole packed weights and
  the whole packed bias row, and writes back rows 1000·t … 1000·t + 999 of each of the two results. Entry (p, q) of
  the value the body forms is the block's row p against column q of the packed weights plus entry q of the packed
  bias; the first result stores its columns 0 … 80, which are the class weights and the class bias, and the second
  its columns 128 … 447, which are the box weights and the box bias. So point t writes back block t of x · Wcᵀ + bc
  and block t of x · Wbᵀ + bb. Row r of either result lies in the block of point r / 1000, so the 20 blocks cover
  each array, and each array ends holding the whole affine layer.
-/
import proofs.«107855_g66451734003796_cont_sun_c4_624_27_alg».proof.Proof.Gen.KernelIdeal.Value
import proofs.«107855_g66451734003796_cont_sun_c4_624_27_alg».proof.Proof.AffineSpec
import proofs.«107855_g66451734003796_cont_sun_c4_624_27_alg».proof.Proof.BodyAffine
import proofs.«107855_g66451734003796_cont_sun_c4_624_27_alg».proof.Proof.PackedOperands
import Idealize.ShloMosaic.Lib.Pipeline.Value
import Idealize.ShloMosaic.Lib.ValueIdx

noncomputable section

open scoped BigOperators

namespace Cert.KernelIdeal.Affine

open Cert.KernelIdeal Cert.KernelIdeal.Gen Cert.KernelIdeal.Value Cert.KernelIdeal.Body Cert.KernelIdeal.Packed
open Cert.TwoAffine Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid's arithmetic -/

/-- The body's loads and stores start at offset zero on both axes. -/
theorem zero_offsets : (![0, 0] : Fin 2 → Nat) = fun _ => 0 := funext fun a => by fin_cases a <;> rfl

/-- The index maps, decided over the 20 points: the activations and both results move down one block of rows per
    point; the packed weights and the packed bias stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- There are 20 points. -/
theorem point_lt (t : Fin cfg0.N) : t.val < 20 :=
  Nat.lt_of_lt_of_eq t.isLt (show cfg0.N = 20 from N_0)

/-- Row p of point t's block is row 1000·t + p of the array. -/
def rowOf (t : Fin cfg0.N) (p : Fin 1000) : Fin 20000 :=
  ⟨1000 * t.val + p.val, by have := point_lt t; have := p.isLt; omega⟩

/-! ## The three input blocks at a point -/

/-- The activations' block at point t, entry (p, k), is the launch's activations at row 1000·t + p, column k. -/
theorem activations_block (c : Dev nD) (t : Fin cfg0.N) (p : Fin 1000) (k : Fin 1024) :
    (iblk m c 0 t : Vec Ideal S1000x1024 .f32) (ix2 p k)
      = ((m ((c : Thread nD τ).loc main_arg0)) : S20000x1024.Idx → EReal) (ix2 (rowOf t p) k) := by
  obtain ⟨e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 1000 + 1 * p.val = 1000 * t.val + p.val; omega
  | ⟨1, _⟩ => show win0_0.index t (1 : Fin 2) * 1024 + 1 * k.val = k.val; omega

/-- The packed weights' block at every point is the whole packed weights. -/
theorem weights_block (c : Dev nD) (t : Fin cfg0.N) (k : Fin 1024) (q : Fin 448) :
    (iblk m c 1 t : Vec Ideal S1024x448 .bf16) (ix2 k q) = packedWeights (m ((c : Thread nD τ).loc main_arg1)) (m ((c : Thread nD τ).loc main_arg3)) (ix2 k q) := by
  obtain ⟨-, -, e0, e1, -⟩ := index_maps t
  show V m c main_v3 (((cfg0.win 1).blk t).view.emb (ix2 k q)) = _
  rw [entry_weights]
  refine congrArg _ (funext fun a => Fin.ext ?_)
  match a with
  | ⟨0, _⟩ => show win0_1.index t (0 : Fin 2) * 1024 + 1 * k.val = k.val; omega
  | ⟨1, _⟩ => show win0_1.index t (1 : Fin 2) * 448 + 1 * q.val = q.val; omega

/-- The packed bias' block at every point is the whole packed bias row. -/
theorem bias_block (c : Dev nD) (t : Fin cfg0.N) (q : Fin 448) :
    (iblk m c 2 t : Vec Ideal S1x448 .f32) (ix2 (0 : Fin 1) q) = packedBias (m ((c : Thread nD τ).loc main_arg2)) (m ((c : Thread nD τ).loc main_arg4)) (ix2 (0 : Fin 1) q) := by
  obtain ⟨-, -, -, -, e0, e1, -⟩ := index_maps t
  show V m c main_v6 (((cfg0.win 2).blk t).view.emb (ix2 (0 : Fin 1) q)) = _
  rw [entry_bias]
  refine congrArg _ (funext fun a => Fin.ext ?_)
  match a with
  | ⟨0, _⟩ => show win0_2.index t (0 : Fin 2) * 1 + 1 * 0 = 0; omega
  | ⟨1, _⟩ => show win0_2.index t (1 : Fin 2) * 448 + 1 * q.val = q.val; omega

/-! ## What the body leaves in each output block, over any three loaded values -/

/-- The first output's block at (p, q): the body's value at column q. -/
theorem scores_block (P0 : Vec Ideal S1000x1024 .f32) (P1 : Vec Ideal S1024x448 .bf16) (P2 : Vec Ideal S1x448 .f32)
    (y : S1000x81.Idx) :
    out0_3 P0 P1 P2 y
      = (∑ k : Fin 1024, P0 (ix2 (⟨(y 0).val, idx2_lt0 y⟩ : Fin 1000) k)
            * P1 (ix2 k (⟨(y 1).val, by have := idx2_lt1 y; omega⟩ : Fin 448)))
          + P2 (ix2 (0 : Fin 1) (⟨(y 1).val, by have := idx2_lt1 y; omega⟩ : Fin 448)) := by
  unfold out0_3
  simp only [View.ld_unit_zero (S := S1000x1024) zero_offsets, View.ld_unit_zero (S := S1024x448) zero_offsets,
    View.ld_unit_zero (S := S1x448) zero_offsets]
  refine (canon3_eq P0 P1 P2 y).trans ?_
  show k0_pay1 P0 P1 P2 (ix3_0 y) = _
  have e : ix3_0 y = ix2 (⟨(y 0).val, idx2_lt0 y⟩ : Fin 1000) (⟨(y 1).val, by have := idx2_lt1 y; omega⟩ : Fin 448) :=
    funext fun a => by match a with | ⟨0, _⟩ => rfl | ⟨1, _⟩ => rfl
  rw [e]
  exact value_at P0 P1 P2 _ _

/-- The second output's block at (p, q): the body's value at column 128 + q. -/
theorem deltas_block (P0 : Vec Ideal S1000x1024 .f32) (P1 : Vec Ideal S1024x448 .bf16) (P2 : Vec Ideal S1x448 .f32)
    (y : S1000x320.Idx) :
    out0_4 P0 P1 P2 y
      = (∑ k : Fin 1024, P0 (ix2 (⟨(y 0).val, idx2_lt0 y⟩ : Fin 1000) k)
            * P1 (ix2 k (⟨(y 1).val + 128, by have := idx2_lt1 y; omega⟩ : Fin 448)))
          + P2 (ix2 (0 : Fin 1) (⟨(y 1).val + 128, by have := idx2_lt1 y; omega⟩ : Fin 448)) := by
  unfold out0_4
  simp only [View.ld_unit_zero (S := S1000x1024) zero_offsets, View.ld_unit_zero (S := S1024x448) zero_offsets,
    View.ld_unit_zero (S := S1x448) zero_offsets]
  refine (canon4_eq P0 P1 P2 y).trans ?_
  show k0_pay1 P0 P1 P2 (ix4_0 y) = _
  have e : ix4_0 y = ix2 (⟨(y 0).val, idx2_lt0 y⟩ : Fin 1000) (⟨(y 1).val + 128, by have := idx2_lt1 y; omega⟩ : Fin 448) :=
    funext fun a => by match a with | ⟨0, _⟩ => rfl | ⟨1, _⟩ => rfl
  rw [e]
  exact value_at P0 P1 P2 _ _

/-! ## What each point writes back -/

/-- Point t writes back block t of x · Wcᵀ + bc. -/
theorem scores_flushed (c : Dev nD) (t : Fin cfg0.N) :
    (dats m 0 c).flushed 3 t
      = ((cfg0.win 3).blk t).view.read (Elt Ideal) (affineArray (m ((c : Thread nD τ).loc main_arg0)) (m ((c : Thread nD τ).loc main_arg1)) (m ((c : Thread nD τ).loc main_arg2))) := by
  obtain ⟨-, -, -, -, -, -, e0, e1, -⟩ := index_maps t
  rw [flushed3]
  funext y
  show out0_3 (iblk m c 0 t) (iblk m c 1 t) (iblk m c 2 t) y
    = affineArray (m ((c : Thread nD τ).loc main_arg0)) (m ((c : Thread nD τ).loc main_arg1)) (m ((c : Thread nD τ).loc main_arg2)) (((cfg0.win 3).blk t).view.emb y)
  have hy0 : (y 0).val < 1000 := (y 0).isLt
  have hy1 : (y 1).val < 81 := (y 1).isLt
  have he : ((cfg0.win 3).blk t).view.emb y = ix2 (rowOf t ⟨(y 0).val, hy0⟩) (⟨(y 1).val, hy1⟩ : Fin 81) := by
    funext a; apply Fin.ext
    match a with
    | ⟨0, _⟩ => show win0_3.index t (0 : Fin 2) * 1000 + 1 * (y 0).val = 1000 * t.val + (y 0).val; omega
    | ⟨1, _⟩ => show win0_3.index t (1 : Fin 2) * 81 + 1 * (y 1).val = (y 1).val; omega
  rw [he, affineArray_ix2]
  refine (scores_block (iblk m c 0 t) (iblk m c 1 t) (iblk m c 2 t) y).trans ?_
  unfold affine
  refine congrArg₂ (· + ·) (Finset.sum_congr rfl fun k _ => ?_) ?_
  · exact congrArg₂ (· * ·) (activations_block m c t _ k)
      ((weights_block m c t k _).trans (packedWeights_scores _ _ k _ hy1))
  · exact (bias_block m c t _).trans (packedBias_scores _ _ _ hy1)

/-- Point t writes back block t of x · Wbᵀ + bb. -/
theorem deltas_flushed (c : Dev nD) (t : Fin cfg0.N) :
    (dats m 0 c).flushed 4 t
      = ((cfg0.win 4).blk t).view.read (Elt Ideal) (affineArray (m ((c : Thread nD τ).loc main_arg0)) (m ((c : Thread nD τ).loc main_arg3)) (m ((c : Thread nD τ).loc main_arg4))) := by
  obtain ⟨-, -, -, -, -, -, -, -, e0, e1⟩ := index_maps t
  rw [flushed4]
  funext y
  show out0_4 (iblk m c 0 t) (iblk m c 1 t) (iblk m c 2 t) y
    = affineArray (m ((c : Thread nD τ).loc main_arg0)) (m ((c : Thread nD τ).loc main_arg3)) (m ((c : Thread nD τ).loc main_arg4)) (((cfg0.win 4).blk t).view.emb y)
  have hy0 : (y 0).val < 1000 := (y 0).isLt
  have hy1 : (y 1).val < 320 := (y 1).isLt
  have he : ((cfg0.win 4).blk t).view.emb y = ix2 (rowOf t ⟨(y 0).val, hy0⟩) (⟨(y 1).val, hy1⟩ : Fin 320) := by
    funext a; apply Fin.ext
    match a with
    | ⟨0, _⟩ => show win0_4.index t (0 : Fin 2) * 1000 + 1 * (y 0).val = 1000 * t.val + (y 0).val; omega
    | ⟨1, _⟩ => show win0_4.index t (1 : Fin 2) * 320 + 1 * (y 1).val = (y 1).val; omega
  rw [he, affineArray_ix2]
  refine (deltas_block (iblk m c 0 t) (iblk m c 1 t) (iblk m c 2 t) y).trans ?_
  unfold affine
  refine congrArg₂ (· + ·) (Finset.sum_congr rfl fun k _ => ?_) ?_
  · exact congrArg₂ (· * ·) (activations_block m c t _ k)
      ((weights_block m c t k _).trans (packedWeights_deltas _ _ k _ ⟨(y 1).val, hy1⟩ (Nat.add_comm _ _)))
  · exact (bias_block m c t _).trans (packedBias_deltas _ _ _ ⟨(y 1).val, hy1⟩ (Nat.add_comm _ _))

/-! ## The blocks cover the arrays -/

/-- An index of the first result is in point t's block iff its row is among the block's 1000 rows. -/
theorem mem_scores_block (t : Fin cfg0.N) (i : S20000x81.Idx) :
    i ∈ ((cfg0.win 3).blk t).view.set ↔ ∀ a : Fin 2, win0_3.index t a * S1000x81.size a ≤ (i a).val
      ∧ (i a).val < win0_3.index t a * S1000x81.size a + S1000x81.size a := by
  show i ∈ ((View.whole main_v7_0).slice (win0_3.rect t)).set ↔ _
  rw [View.set_slice_whole, Rect.mem_set_unit]
  exact Iff.rfl

/-- An index of the second result is in point t's block iff its row is among the block's 1000 rows. -/
theorem mem_deltas_block (t : Fin cfg0.N) (i : S20000x320.Idx) :
    i ∈ ((cfg0.win 4).blk t).view.set ↔ ∀ a : Fin 2, win0_4.index t a * S1000x320.size a ≤ (i a).val
      ∧ (i a).val < win0_4.index t a * S1000x320.size a + S1000x320.size a := by
  show i ∈ ((View.whole main_v7_1).slice (win0_4.rect t)).set ↔ _
  rw [View.set_slice_whole, Rect.mem_set_unit]
  exact Iff.rfl

/-- The point whose blocks hold row r: r / 1000. -/
def pointOf (r : Nat) (hr : r < 20000) : Fin cfg0.N :=
  ⟨r / 1000, by rw [show cfg0.N = 20 from N_0]; omega⟩

/-- Every index of the first result is in the block of the point its row names. -/
theorem scores_cover (i : S20000x81.Idx) :
    ∃ t : Fin cfg0.N, (cfg0.win 3).flush t = true ∧ i ∈ ((cfg0.win 3).blk t).view.set := by
  have hi0 : (i 0).val < 20000 := (i 0).isLt
  have hi1 : (i 1).val < 81 := (i 1).isLt
  refine ⟨pointOf (i 0).val hi0, flush0_3 _, ?_⟩
  obtain ⟨-, -, -, -, -, -, e0, e1, -⟩ := index_maps (pointOf (i 0).val hi0)
  have ht : (pointOf (i 0).val hi0).val = (i 0).val / 1000 := rfl
  rw [mem_scores_block]
  intro a
  match a with
  | ⟨0, _⟩ =>
    show win0_3.index (pointOf (i 0).val hi0) (0 : Fin 2) * 1000 ≤ (i 0).val
      ∧ (i 0).val < win0_3.index (pointOf (i 0).val hi0) (0 : Fin 2) * 1000 + 1000
    omega
  | ⟨1, _⟩ =>
    show win0_3.index (pointOf (i 0).val hi0) (1 : Fin 2) * 81 ≤ (i 1).val
      ∧ (i 1).val < win0_3.index (pointOf (i 0).val hi0) (1 : Fin 2) * 81 + 81
    omega

/-- Every index of the second result is in the block of the point its row names. -/
theorem deltas_cover (i : S20000x320.Idx) :
    ∃ t : Fin cfg0.N, (cfg0.win 4).flush t = true ∧ i ∈ ((cfg0.win 4).blk t).view.set := by
  have hi0 : (i 0).val < 20000 := (i 0).isLt
  have hi1 : (i 1).val < 320 := (i 1).isLt
  refine ⟨pointOf (i 0).val hi0, flush0_4 _, ?_⟩
  obtain ⟨-, -, -, -, -, -, -, -, e0, e1⟩ := index_maps (pointOf (i 0).val hi0)
  have ht : (pointOf (i 0).val hi0).val = (i 0).val / 1000 := rfl
  rw [mem_deltas_block]
  intro a
  match a with
  | ⟨0, _⟩ =>
    show win0_4.index (pointOf (i 0).val hi0) (0 : Fin 2) * 1000 ≤ (i 0).val
      ∧ (i 0).val < win0_4.index (pointOf (i 0).val hi0) (0 : Fin 2) * 1000 + 1000
    omega
  | ⟨1, _⟩ =>
    show win0_4.index (pointOf (i 0).val hi0) (1 : Fin 2) * 320 ≤ (i 1).val
      ∧ (i 1).val < win0_4.index (pointOf (i 0).val hi0) (1 : Fin 2) * 320 + 320
    omega

/-! ## The arrays after the run -/

/-- The first result ends holding x · Wcᵀ + bc. -/
theorem scores_final (c : Dev nD) :
    (dats m 0 c).arrAt 3 cfg0.N = affineArray (m ((c : Thread nD τ).loc main_arg0)) (m ((c : Thread nD τ).loc main_arg1)) (m ((c : Thread nD τ).loc main_arg2)) :=
  (dats m 0 c).arrAt_eq_of_cover 3 (affineArray (m ((c : Thread nD τ).loc main_arg0)) (m ((c : Thread nD τ).loc main_arg1)) (m ((c : Thread nD τ).loc main_arg2)))
    (fun t _ => scores_flushed m c t) scores_cover

/-- The second result ends holding x · Wbᵀ + bb. -/
theorem deltas_final (c : Dev nD) :
    (dats m 0 c).arrAt 4 cfg0.N = affineArray (m ((c : Thread nD τ).loc main_arg0)) (m ((c : Thread nD τ).loc main_arg3)) (m ((c : Thread nD τ).loc main_arg4)) :=
  (dats m 0 c).arrAt_eq_of_cover 4 (affineArray (m ((c : Thread nD τ).loc main_arg0)) (m ((c : Thread nD τ).loc main_arg3)) (m ((c : Thread nD τ).loc main_arg4)))
    (fun t _ => deltas_flushed m c t) deltas_cover

/-- THE KERNEL'S RUN, READ: every weakly fair execution terminates with the two results at the two affine layers
    of the launch's arguments, and the arguments unchanged. -/
theorem run : θ_run defs (onTc (τ := τ) (main (F := Ideal))) ⟨m, fun _ => 0, ρ⟩ fun r => ∀ c : Dev nD,
      r.2.mem ((c : Thread nD τ).loc main_v7_0) = affineArray (m ((c : Thread nD τ).loc main_arg0)) (m ((c : Thread nD τ).loc main_arg1)) (m ((c : Thread nD τ).loc main_arg2))
      ∧ r.2.mem ((c : Thread nD τ).loc main_v7_1) = affineArray (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (scores_final m c), (h c).2.1.trans (deltas_final m c), (h c).2.2⟩)
    (run_blocks m ρ)

end Cert.KernelIdeal.Affine

end
-- ==== Proof.lean ====
/-
  Two affine layers over the same activations, fused into one kernel, against the two layers computed separately.

  The reference computes scores = x · Wcᵀ + bc (81 columns) and deltas = x · Wbᵀ + bb (320 columns) by two products
  of the 20000 × 1024 activations with the transposed weights. The kernel packs the two weight matrices into one
  [1024, 448] matrix — the class weights padded from 81 to 128 rows, the box weights under them, transposed — and the
  two bias vectors into one row of 448 entries; at each of 20 grid points it multiplies 1000 rows of the activations
  by the packed weights, adds the packed bias row, and stores columns 0 … 80 and columns 128 … 447 of the value as
  the two results' blocks. The padding columns 81 … 127 are never stored.

  On the extended reals a change of float format is the identity and both products are the plain sums over the 1024
  shared columns. Entry (p, q) of either result is, in both programs, the sum over k of x(p, k) · W(q, k) plus b(q)
  with the same terms in the same order, so the two programs agree entry by entry; the finiteness of the inputs is
  not used. The ideal pass rewrote no operation of the kernel, so the idealization claim is trivial. The three frame
  claims are the generated frame certificates of the two kernel programs and the reference's run with its results
  dropped.
-/
import proofs.«107855_g66451734003796_cont_sun_c4_624_27_alg».proof.Defs
import proofs.«107855_g66451734003796_cont_sun_c4_624_27_alg».proof.Proof.Gen.Kernel
import proofs.«107855_g66451734003796_cont_sun_c4_624_27_alg».proof.Proof.Gen.Kernel.Skeleton
import proofs.«107855_g66451734003796_cont_sun_c4_624_27_alg».proof.Proof.Gen.Kernel.Launch
import proofs.«107855_g66451734003796_cont_sun_c4_624_27_alg».proof.Proof.Gen.Kernel.Points
import proofs.«107855_g66451734003796_cont_sun_c4_624_27_alg».proof.Proof.Gen.Kernel.Frame
import proofs.«107855_g66451734003796_cont_sun_c4_624_27_alg».proof.Proof.Gen.KernelIdeal
import proofs.«107855_g66451734003796_cont_sun_c4_624_27_alg».proof.Proof.Gen.KernelIdeal.Skeleton
import proofs.«107855_g66451734003796_cont_sun_c4_624_27_alg».proof.Proof.Gen.KernelIdeal.Launch
import proofs.«107855_g66451734003796_cont_sun_c4_624_27_alg».proof.Proof.Gen.KernelIdeal.Points
import proofs.«107855_g66451734003796_cont_sun_c4_624_27_alg».proof.Proof.Gen.KernelIdeal.Frame
import proofs.«107855_g66451734003796_cont_sun_c4_624_27_alg».proof.Proof.Gen.ReferenceIdeal
import proofs.«107855_g66451734003796_cont_sun_c4_624_27_alg».proof.Proof.Gen.Pre_finite_inputs
import proofs.«107855_g66451734003796_cont_sun_c4_624_27_alg».proof.Proof.Gen.KernelIdeal.Value
import proofs.«107855_g66451734003796_cont_sun_c4_624_27_alg».proof.Proof.Gen.ReferenceIdeal.Run
import proofs.«107855_g66451734003796_cont_sun_c4_624_27_alg».proof.Proof.Gen.ReferenceIdeal.Read
import proofs.«107855_g66451734003796_cont_sun_c4_624_27_alg».proof.Proof.AffineSpec
import proofs.«107855_g66451734003796_cont_sun_c4_624_27_alg».proof.Proof.ReferenceAffine
import proofs.«107855_g66451734003796_cont_sun_c4_624_27_alg».proof.Proof.KernelAffine
import Idealize.ShloMosaic.Adequacy
import Idealize.ShloMosaic.Init

noncomputable section

namespace Cert.Proof

open Idealize.ShloMosaic Idealize.SL.Sem Cert.TwoAffine

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with what it says of the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The ideal pass rewrote nothing: there is nothing to preserve. -/
theorem preserves : Cert.preserves_Kernel_KernelIdeal := trivial

/-- From memories that agree on the five arguments both programs end with scores = x · Wcᵀ + bc and
    deltas = x · Wbᵀ + bb of those arguments. -/
theorem algebraic : Cert.algebraic_KernelIdeal_ReferenceIdeal := by
  intro m ρ m' ρ' _ hagree
  refine ⟨fun c => affineArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => affineArray (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Affine.run m ρ, ?_⟩
  refine (θ_run Cert.ReferenceIdeal.defs _ _).mono (fun _ h c => ?_)
    (Cert.ReferenceIdeal.Value.run (F := Ideal) m' ρ')
  obtain ⟨a0, a1, a2, a3, a4⟩ := hagree c
  refine ⟨(h c).1.trans ?_, (h c).2.1.trans ?_, (h c).2.2⟩
  · rw [Cert.ReferenceIdeal.Read.val_main_v4_eq, Cert.ReferenceIdeal.Affine.scores_eq, a0, a1, a2]
  · rw [Cert.ReferenceIdeal.Read.val_main_v9_eq, Cert.ReferenceIdeal.Affine.deltas_eq, a0, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
